-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x128 : Shape := ⟨3, ![8, 10000, 128]⟩
abbrev S128x128 : Shape := ⟨2, ![128, 128]⟩
abbrev S128 : Shape := ⟨1, ![128]⟩
abbrev S2x160000 : Shape := ⟨2, ![2, 160000]⟩
abbrev S_ : Shape := ⟨0, ![]⟩

class Facts : Prop where
  bcast_S_S8x10000x128 : S_.BroadcastsInDim S8x10000x128 (![] : Fin 0 → Fin S8x10000x128.rank)
  reducesTo_S8x10000x128_S_d0_1_2 : S8x10000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S8x10000x128 .f32) (main_arg1 : FVec F S128x128 .f32) (main_arg2 : FVec F S128 .f32) (main_arg3 : FVec F S128x128 .f32) (main_arg4 : IVec S2x160000 32) : IVec S_ 1 :=
  let main_v0 : FVec F S8x10000x128 .f32 := Host.absf main_arg0
  let main_cst : FVec F S_ .f32 := constant S_ .f32 0x7F800000#32
  let main_v1 : FVec F S8x10000x128 .f32 := broadcastInDim S8x10000x128 ![] bcast_S_S8x10000x128 main_cst
  let main_v2 : IVec S8x10000x128 1 := cmpf .olt main_v0 main_v1
  let main_c : IVec S_ 1 := constantI S_ 1 1#1
  let main_v3 : IVec S_ 1 := (fun x v => Host.reduce IntOp.andi x v reducesTo_S8x10000x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S8x10000x128 : Shape := ⟨3, ![8, 10000, 128]⟩
abbrev S128x128 : Shape := ⟨2, ![128, 128]⟩
abbrev S128 : Shape := ⟨1, ![128]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S1x10000x1 : Shape := ⟨3, ![1, 10000, 1]⟩
abbrev S8x160000x128 : Shape := ⟨3, ![8, 160000, 128]⟩
abbrev S10000x128 : Shape := ⟨2, ![10000, 128]⟩
abbrev S1x128 : Shape := ⟨2, ![1, 128]⟩
abbrev S1x2000x128 : Shape := ⟨3, ![1, 2000, 128]⟩
abbrev S2000x128 : Shape := ⟨2, ![2000, 128]⟩

abbrev nBuf : Space → Nat
  | .hbm => 39
  | .vmem => 9
  | .smem => 0
  | _ => 0

abbrev bufTy : (tb : Table) → Fin (tcTables nBuf tb) → BufTy
  | .hbm, ⟨0, _⟩ => ⟨S8x10000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S2x160000, .i32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S_, .f32⟩
  | .hbm, ⟨10, _⟩ => ⟨S160000, .f32⟩
  | .hbm, ⟨11, _⟩ => ⟨S_, .f32⟩
  | .hbm, ⟨12, _⟩ => ⟨S10000, .f32⟩
  | .hbm, ⟨13, _⟩ => ⟨S160000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S1x10000x1, .f32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S8x160000x128, .f32⟩
  | .hbm, ⟨28, _⟩ => ⟨S_, .f32⟩
  | .hbm, ⟨29, _⟩ => ⟨S10000x128, .f32⟩
  | .hbm, ⟨30, _⟩ => ⟨S160000x1, .i32⟩
  | .hbm, ⟨31, _⟩ => ⟨S8x10000x128, .f32⟩
  | .hbm, ⟨32, _⟩ => ⟨S8x10000x128, .f32⟩
  | .hbm, ⟨33, _⟩ => ⟨S8x10000x128, .f32⟩
  | .hbm, ⟨34, _⟩ => ⟨S8x10000x128, .f32⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S8x10000x128, .f32⟩
  | .local _ .vmem, ⟨0, _⟩ => ⟨S1x2000x128, .f32⟩
  | .local _ .vmem, ⟨1, _⟩ => ⟨S1x2000x128, .f32⟩
  | .local _ .vmem, ⟨2, _⟩ => ⟨S1x2000x128, .f32⟩
  | .local _ .vmem, ⟨3, _⟩ => ⟨S1x2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x2000x128, .f32⟩
  | .local _ .vmem, ⟨8, _⟩ => ⟨S1x2000x128, .f32⟩
  | _, _ => ⟨S8x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  shapeCasts_S10000_S1x10000x1 : S10000.ShapeCasts S1x10000x1
  bcast_S_S10000x128 : S_.BroadcastsInDim S10000x128 (![] : Fin 0 → Fin S10000x128.rank)
  bcast_S10000x128_S8x10000x128_1_2 : S10000x128.BroadcastsInDim S8x10000x128 (![1, 2] : Fin 2 → Fin S8x10000x128.rank)
  bcast_S1x10000x1_S8x10000x128_0_1_2 : S1x10000x1.BroadcastsInDim S8x10000x128 (![0, 1, 2] : Fin 3 → Fin S8x10000x128.rank)
  transposes_S128x128_S128x128_1_0 : S128x128.Transposes [1, 0] S128x128
  shapeCasts_S128_S1x128 : S128.ShapeCasts S1x128
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S1x2000x128 : S2000x128.ShapeCasts S1x2000x128
  scatter_S10000_S160000x1_S160000_n_0_0_1_wf : ScatterDims.WF S10000 S160000x1 S160000 [] [0] [0] 1
  gather_S8x10000x128_S160000x1_S8x160000x128_02_1_n_n_1_1_81128_wf : GatherDims.WF S8x10000x128 S160000x1 S8x160000x128 [0, 2] [1] [] [1] [] 1 ![8, 1, 128]
  scatter_S8x10000x128_S160000x1_S8x160000x128_02_1_1_1_wf : ScatterDims.WF S8x10000x128 S160000x1 S8x160000x128 [0, 2] [1] [1] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x128.size a ≤ S8x10000x128.size a
  hwx0_0 : ∀ i : grid0.Coords, EltTy.bits .f32 = 32 ∨ (Rect.block (s := S8x10000x128) S1x2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x128.size a ≤ S8x10000x128.size a
  hwx0_1 : ∀ i : grid0.Coords, EltTy.bits .f32 = 32 ∨ (Rect.block (s := S8x10000x128) S1x2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2000x128.size a ≤ S8x10000x128.size a
  hwx0_5 : ∀ i : grid0.Coords, EltTy.bits .f32 = 32 ∨ (Rect.block (s := S8x10000x128) S1x2000x128.size (cc0_transform_5 i) (hinb0_5 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S8x10000x128_S160000x1_S8x160000x128_02_1_n_n_1_1_81128 : GatherDims S8x10000x128 S160000x1 S8x160000x128 where
  offsetDims := [0, 2]
  collapsedSliceDims := [1]
  operandBatchingDims := []
  startIndicesBatchingDims := []
  startIndexMap := [1]
  indexVectorDim := 1
  sliceSizes := ![8, 1, 128]
  wf := gather_S8x10000x128_S160000x1_S8x160000x128_02_1_n_n_1_1_81128_wf
def scatter_S8x10000x128_S160000x1_S8x160000x128_02_1_1_1 : ScatterDims S8x10000x128 S160000x1 S8x160000x128 where
  updateWindowDims := [0, 2]
  insertedWindowDims := [1]
  scatterDimsToOperandDims := [1]
  indexVectorDim := 1
  wf := scatter_S8x10000x128_S160000x1_S8x160000x128_02_1_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v23) S1x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x10000x128 : Shape := ⟨3, ![8, 10000, 128]⟩
abbrev S128x128 : Shape := ⟨2, ![128, 128]⟩
abbrev S128 : Shape := ⟨1, ![128]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S8x160000x128 : Shape := ⟨3, ![8, 160000, 128]⟩
abbrev S10000x128 : Shape := ⟨2, ![10000, 128]⟩
abbrev S1x10000x1 : Shape := ⟨3, ![1, 10000, 1]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S8x10000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S2x160000, .i32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S_, .f32⟩
  | .hbm, ⟨10, _⟩ => ⟨S160000, .f32⟩
  | .hbm, ⟨11, _⟩ => ⟨S_, .f32⟩
  | .hbm, ⟨12, _⟩ => ⟨S10000, .f32⟩
  | .hbm, ⟨13, _⟩ => ⟨S160000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S10000x1, .f32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S8x160000x128, .f32⟩
  | .hbm, ⟨28, _⟩ => ⟨S_, .f32⟩
  | .hbm, ⟨29, _⟩ => ⟨S10000x128, .f32⟩
  | .hbm, ⟨30, _⟩ => ⟨S160000x1, .i32⟩
  | .hbm, ⟨31, _⟩ => ⟨S8x10000x128, .f32⟩
  | .hbm, ⟨32, _⟩ => ⟨S8x10000x128, .f32⟩
  | .hbm, ⟨33, _⟩ => ⟨S1x10000x1, .f32⟩
  | .hbm, ⟨34, _⟩ => ⟨S8x10000x128, .f32⟩
  | .hbm, ⟨35, _⟩ => ⟨S8x10000x128, .f32⟩
  | .hbm, ⟨36, _⟩ => ⟨S8x10000x128, .f32⟩
  | .hbm, ⟨37, _⟩ => ⟨S1x1x128, .f32⟩
  | .hbm, ⟨38, _⟩ => ⟨S8x10000x128, .f32⟩
  | .hbm, ⟨39, _⟩ => ⟨S8x10000x128, .f32⟩
  | .hbm, ⟨40, _⟩ => ⟨S8x10000x128, .f32⟩
  | .hbm, ⟨41, _⟩ => ⟨S8x10000x128, .f32⟩
  | _, _ => ⟨S8x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  bcast_S_S10000x128 : S_.BroadcastsInDim S10000x128 (![] : Fin 0 → Fin S10000x128.rank)
  bcast_S10000x128_S8x10000x128_1_2 : S10000x128.BroadcastsInDim S8x10000x128 (![1, 2] : Fin 2 → Fin S8x10000x128.rank)
  bcast_S10000x1_S1x10000x1_1_2 : S10000x1.BroadcastsInDim S1x10000x1 (![1, 2] : Fin 2 → Fin S1x10000x1.rank)
  bcast_S1x10000x1_S8x10000x128_0_1_2 : S1x10000x1.BroadcastsInDim S8x10000x128 (![0, 1, 2] : Fin 3 → Fin S8x10000x128.rank)
  bcast_S128_S1x1x128_2 : S128.BroadcastsInDim S1x1x128 (![2] : Fin 1 → Fin S1x1x128.rank)
  bcast_S1x1x128_S8x10000x128_0_1_2 : S1x1x128.BroadcastsInDim S8x10000x128 (![0, 1, 2] : Fin 3 → Fin S8x10000x128.rank)
  scatter_S10000_S160000x1_S160000_n_0_0_1_wf : ScatterDims.WF S10000 S160000x1 S160000 [] [0] [0] 1
  gather_S8x10000x128_S160000x1_S8x160000x128_02_1_n_n_1_1_81128_wf : GatherDims.WF S8x10000x128 S160000x1 S8x160000x128 [0, 2] [1] [] [1] [] 1 ![8, 1, 128]
  scatter_S8x10000x128_S160000x1_S8x160000x128_02_1_1_1_wf : ScatterDims.WF S8x10000x128 S160000x1 S8x160000x128 [0, 2] [1] [1] 1
  dot_S8x10000x128_S128x128_S8x10000x128_2_1_01_0_n_n_wf : DotDims.WF S8x10000x128 S128x128 S8x10000x128 [2] [1] [0, 1] [0] [] []

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S8x10000x128_S160000x1_S8x160000x128_02_1_n_n_1_1_81128 : GatherDims S8x10000x128 S160000x1 S8x160000x128 where
  offsetDims := [0, 2]
  collapsedSliceDims := [1]
  operandBatchingDims := []
  startIndicesBatchingDims := []
  startIndexMap := [1]
  indexVectorDim := 1
  sliceSizes := ![8, 1, 128]
  wf := gather_S8x10000x128_S160000x1_S8x160000x128_02_1_n_n_1_1_81128_wf
def scatter_S8x10000x128_S160000x1_S8x160000x128_02_1_1_1 : ScatterDims S8x10000x128 S160000x1 S8x160000x128 where
  updateWindowDims := [0, 2]
  insertedWindowDims := [1]
  scatterDimsToOperandDims := [1]
  indexVectorDim := 1
  wf := scatter_S8x10000x128_S160000x1_S8x160000x128_02_1_1_1_wf
def dot_S8x10000x128_S128x128_S8x10000x128_2_1_01_0_n_n : DotDims S8x10000x128 S128x128 S8x10000x128 where
  lhsContracting := [2]
  rhsContracting := [1]
  lhsNonContracting := [0, 1]
  rhsNonContracting := [0]
  lhsBatch := []
  rhsBatch := []
  wf := dot_S8x10000x128_S128x128_S8x10000x128_2_1_01_0_n_n_wf

class Facts : Prop extends Facts₀ where

variable [Facts]
-- ==== Proof.Spec.lean ====
/-
  The layer, as one function of five arrays.

  A node's output row is the affine image of its neighbourhood mean plus the linear image of its own row:
      out[b, n, o] = Σₖ mean[b, n, k] · W_l[o, k] + bias[o] + Σₖ x[b, n, k] · W_r[o, k].
  The reference adds the three terms in that order. The kernel is handed the two weight matrices transposed
  and the bias as a one-row matrix, and adds the two sums first and the bias last. On the extended reals addition is
  commutative and associative, with no side condition, so the two arrangements are the same number whatever the
  entries are (infinite ones included): no finiteness of the inputs is used.
-/
import Idealize.ShloMosaic.PureOps.Ideal
import Idealize.ShloMosaic.Lib.ValueIdx

noncomputable section

namespace Cert.Sage

open Idealize.ShloMosaic Idealize.ShloMosaic.ValueIdx

/-- The node features and the layer's output: batch × node × feature. -/
abbrev Feat : Shape := ⟨3, ![8, 10000, 128]⟩
/-- A weight matrix. -/
abbrev Wt : Shape := ⟨2, ![128, 128]⟩
/-- The bias vector, and the same as a one-row matrix. -/
abbrev Bias : Shape := ⟨1, ![128]⟩
abbrev BiasRow : Shape := ⟨2, ![1, 128]⟩

/-- The reference's arrangement at (b, n, o): weights indexed [output, input], the bias between the two sums. -/
def layerAt (mean x : Feat.Idx → EReal) (wl wr : Wt.Idx → EReal) (bias : Bias.Idx → EReal)
    (b : Fin 8) (n : Fin 10000) (o : Fin 128) : EReal :=
  ((∑ k : Fin 128, mean (ix3 b n k) * wl (ix2 o k)) + bias (ix1 o)) + ∑ k : Fin 128, x (ix3 b n k) * wr (ix2 o k)

/-- The layer as an array. -/
def layer (mean x : Feat.Idx → EReal) (wl wr : Wt.Idx → EReal) (bias : Bias.Idx → EReal) : Feat.Idx → EReal :=
  fun i => layerAt mean x wl wr bias (i 0) (i 1) (i 2)

/-- The kernel's arrangement at (b, n, o): weights indexed [input, output], the bias row added last. -/
def layerTAt (mean x : Feat.Idx → EReal) (wlT wrT : Wt.Idx → EReal) (brow : BiasRow.Idx → EReal)
    (b : Fin 8) (n : Fin 10000) (o : Fin 128) : EReal :=
  ((∑ k : Fin 128, mean (ix3 b n k) * wlT (ix2 k o)) + ∑ k : Fin 128, x (ix3 b n k) * wrT (ix2 k o)) + brow (ix2 (0 : Fin 1) o)

/-- The same as an array. -/
def layerT (mean x : Feat.Idx → EReal) (wlT wrT : Wt.Idx → EReal) (brow : BiasRow.Idx → EReal) : Feat.Idx → EReal :=
  fun i => layerTAt mean x wlT wrT brow (i 0) (i 1) (i 2)

/-- With the weights transposed and the bias laid as a row, the kernel's arrangement is the reference's at every
    (b, n, o): (A + C) + B = (A + B) + C in any commutative monoid. -/
theorem layerTAt_eq_layerAt (mean x : Feat.Idx → EReal) (wl wr wlT wrT : Wt.Idx → EReal) (bias : Bias.Idx → EReal)
    (brow : BiasRow.Idx → EReal)
    (hl : ∀ (k o : Fin 128), wlT (ix2 k o) = wl (ix2 o k)) (hr : ∀ (k o : Fin 128), wrT (ix2 k o) = wr (ix2 o k))
    (hb : ∀ o : Fin 128, brow (ix2 (0 : Fin 1) o) = bias (ix1 o)) (b : Fin 8) (n : Fin 10000) (o : Fin 128) :
    layerTAt mean x wlT wrT brow b n o = layerAt mean x wl wr bias b n o := by
  unfold layerTAt layerAt
  simp only [hl, hr, hb]
  exact add_right_comm _ _ _

/-- So the two arrays are one. -/
theorem layerT_eq_layer (mean x : Feat.Idx → EReal) (wl wr wlT wrT : Wt.Idx → EReal) (bias : Bias.Idx → EReal)
    (brow : BiasRow.Idx → EReal)
    (hl : ∀ (k o : Fin 128), wlT (ix2 k o) = wl (ix2 o k)) (hr : ∀ (k o : Fin 128), wrT (ix2 k o) = wr (ix2 o k))
    (hb : ∀ o : Fin 128, brow (ix2 (0 : Fin 1) o) = bias (ix1 o)) :
    layerT mean x wlT wrT brow = layer mean x wl wr bias :=
  funext fun i => layerTAt_eq_layerAt mean x wl wr wlT wrT bias brow hl hr hb (i 0) (i 1) (i 2)

end Cert.Sage

end
-- ==== Proof.Entry.lean ====
/-
  The arrays the projection kernel finds when its region is entered, as functions of the five arguments.

  Before the region the program computes, on the host, the neighbourhood means: the rows of `x` gathered along the
  edges' sources and summed into the edges' targets, each node's sum divided by its in-degree (at least one). The
  reference computes the same sums and the same degrees by the same operations; only the way the degree vector
  is spread over the [8, 10000, 128] array differs (a reshape to [1, 10000, 1] and one broadcast here; a column
  [10000, 1] and two more broadcasts there). Both denominators are the degree of node n at every index (b, n, f), so
  the two mean arrays are one array. The sums and the degrees themselves are carried as the reference's stages
  and never opened.

  The other three operands are re-laid arguments: the two weight matrices transposed and the bias as a row.
-/
import proofs.«102257_j19739669692578_1_alg».proof.Proof.Gen.KernelIdeal.Frame
import proofs.«102257_j19739669692578_1_alg».proof.Proof.Gen.ReferenceIdeal.Read
import Idealize.ShloMosaic.Lib.StableHlo.Run
import Idealize.ShloMosaic.Lib.ValueLayout

noncomputable section

namespace Cert.Sage.Entry

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## The mean array -/

set_option maxHeartbeats 2000000 in
/-- The first operand as the host operations leave it: the neighbourhood sums over the degrees, the degree vector
    reshaped to [1, 10000, 1] and broadcast. -/
theorem mean_term (c : Dev nD) :
    (V m c main_v23 : FVec Ideal S8x10000x128 .f32) =
      Host.divf (F := Ideal) (φ := .f32) (s := S8x10000x128)
        (Cert.ReferenceIdeal.Read.val_main_v21 (F := Ideal) (m ((c : Thread nD τ).loc main_arg0)) (m ((c : Thread nD τ).loc main_arg4)))
        (broadcastInDim (α := EReal) S8x10000x128 ![0, 1, 2] bcast_S1x10000x1_S8x10000x128_0_1_2
          (shapeCast (α := EReal) (s := S10000) S1x10000x1 (Cert.ReferenceIdeal.Read.val_main_v9 (F := Ideal) (m ((c : Thread nD τ).loc main_arg4)))
            shapeCasts_S10000_S1x10000x1)) := by
  dsimp only [Gen.V, Gen.hostOps0]; after_results_simp
  rfl

/-- A vector over the nodes, reshaped to [1, 10000, 1] and broadcast to [8, 10000, 128], holds at (b, n, f) the
    vector's entry n. -/
theorem spread_at (deg : S10000.Idx → EReal) (b : Fin 8) (n : Fin 10000) (f : Fin 128) :
    broadcastInDim (α := EReal) S8x10000x128 ![0, 1, 2] bcast_S1x10000x1_S8x10000x128_0_1_2
        (shapeCast (α := EReal) (s := S10000) S1x10000x1 deg shapeCasts_S10000_S1x10000x1) (ix3 b n f)
      = deg (ix1 n) := by
  refine (broadcastInDim_apply _ bcast_S1x10000x1_S8x10000x128_0_1_2 _ (ix3 b n f) (ix3 (0 : Fin 1) n (0 : Fin 1)) (fun a => ?_)).trans ?_
  · match a with
    | ⟨0, _⟩ => show 0 = if (1 : Nat) = 1 then 0 else b.val; rw [if_pos rfl]
    | ⟨1, _⟩ => show n.val = if (10000 : Nat) = 1 then 0 else n.val; rw [if_neg (by decide)]
    | ⟨2, _⟩ => show 0 = if (1 : Nat) = 1 then 0 else f.val; rw [if_pos rfl]
  · exact shapeCast_apply deg shapeCasts_S10000_S1x10000x1 _ (ix1 n) (by
      rw [Shape.rowMajor_val_three, Shape.rowMajor_val_one]
      show n.val = (0 * 10000 + n.val) * 1 + 0
      omega)

/-- The reference's denominator (the degrees as a column [10000, 1], then [1, 10000, 1], then [8, 10000, 128]) holds
    the same entry. -/
theorem ref_spread_at (x4 : (⟨Cert.ReferenceIdeal.S2x160000, .i32⟩ : BufTy).Contents (Elt Ideal)) (b : Fin 8) (n : Fin 10000) (f : Fin 128) :
    Cert.ReferenceIdeal.Read.val_main_v23 (F := Ideal) x4 (ix3 b n f) = Cert.ReferenceIdeal.Read.val_main_v9 (F := Ideal) x4 (ix1 n) := by
  rw [Cert.ReferenceIdeal.Read.val_main_v23_apply, Cert.ReferenceIdeal.Read.val_main_v22_apply, Cert.ReferenceIdeal.Read.val_main_v10_apply]
  exact congrArg _ (funext fun a => Fin.ext (by match a with | ⟨0, _⟩ => rfl))

/-- The first operand is the reference's mean array. -/
theorem mean_eq (c : Dev nD) :
    (V m c main_v23 : FVec Ideal S8x10000x128 .f32)
      = Cert.ReferenceIdeal.Read.val_main_v24 (F := Ideal) (m ((c : Thread nD τ).loc main_arg0)) (m ((c : Thread nD τ).loc main_arg4)) := by
  rw [mean_term]
  unfold Cert.ReferenceIdeal.Read.val_main_v24
  refine congrArg (Host.divf (F := Ideal) (φ := .f32) (s := S8x10000x128) _) (funext fun j => ?_)
  obtain ⟨b, n, f, rfl⟩ : ∃ (b : Fin 8) (n : Fin 10000) (f : Fin 128), j = ix3 b n f := ⟨j 0, j 1, j 2, eq_ix3 j⟩
  exact (spread_at _ b n f).trans (ref_spread_at _ b n f).symm

/-! ## The weights and the bias -/

set_option maxHeartbeats 2000000 in
/-- The third operand is W_l transposed. -/
theorem wl_at (c : Dev nD) (k o : Fin 128) :
    (V m c main_v24 : FVec Ideal S128x128 .f32) (ix2 k o) = (m ((c : Thread nD τ).loc main_arg1) : FVec Ideal S128x128 .f32) (ix2 o k) := by
  have e : (V m c main_v24 : FVec Ideal S128x128 .f32)
      = transpose (α := EReal) (s := S128x128) S128x128 [1, 0] (m ((c : Thread nD τ).loc main_arg1)) transposes_S128x128_S128x128_1_0 := by
    dsimp only [Gen.V, Gen.hostOps0]; after_results_simp <;> rfl
  rw [e]
  exact transpose_ix2_apply _ _ k o

set_option maxHeartbeats 2000000 in
/-- The fourth operand is W_r transposed. -/
theorem wr_at (c : Dev nD) (k o : Fin 128) :
    (V m c main_v25 : FVec Ideal S128x128 .f32) (ix2 k o) = (m ((c : Thread nD τ).loc main_arg3) : FVec Ideal S128x128 .f32) (ix2 o k) := by
  have e : (V m c main_v25 : FVec Ideal S128x128 .f32)
      = transpose (α := EReal) (s := S128x128) S128x128 [1, 0] (m ((c : Thread nD τ).loc main_arg3)) transposes_S128x128_S128x128_1_0 := by
    dsimp only [Gen.V, Gen.hostOps0]; after_results_simp <;> rfl
  rw [e]
  exact transpose_ix2_apply _ _ k o

set_option maxHeartbeats 2000000 in
/-- The fifth operand is the bias as a one-row matrix. -/
theorem bias_at (c : Dev nD) (o : Fin 128) :
    (V m c main_v26 : FVec Ideal S1x128 .f32) (ix2 (0 : Fin 1) o) = (m ((c : Thread nD τ).loc main_arg2) : FVec Ideal S128 .f32) (ix1 o) := by
  have e : (V m c main_v26 : FVec Ideal S1x128 .f32)
      = shapeCast (α := EReal) (s := S128) S1x128 (m ((c : Thread nD τ).loc main_arg2)) shapeCasts_S128_S1x128 := by
    dsimp only [Gen.V, Gen.hostOps0]; after_results_simp <;> rfl
  rw [e]
  exact shapeCast_a_1a_apply _ _ (0 : Fin 1) o

end Cert.Sage.Entry

end
-- ==== Proof.Body.lean ====
/-
  What the kernel body stores, entry by entry.

  The body loads a [1, 2000, 128] block of neighbourhood means, the same block of node rows, the two transposed
  [128, 128] weight matrices and the [1, 128] bias row; it drops the blocks' unit axis, rounds all four matrix operands to
  bf16 (the identity on extended reals), multiplies each block by its matrix into a zero accumulator, adds the two
  products, adds the bias row broadcast over the 2000 rows, and puts the unit axis back. So the stored block at
  (0, r, o) is
      (Σₖ means[0, r, k] · W_lᵀ[k, o] + Σₖ rows[0, r, k] · W_rᵀ[k, o]) + bias[0, o],
  each matrix product read as the sum over its one contracted axis.
-/
import proofs.«102257_j19739669692578_1_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.Sage.Body

open Idealize.ShloMosaic Idealize.ShloMosaic.ValueIdx
open Cert.KernelIdeal Cert.KernelIdeal.Gen

/-- The body's one matrix product: [2000, 128] by [128, 128], contracting the left operand's columns with the right
    operand's rows. -/
abbrev D : DotDims S2000x128 S128x128 S2000x128 := dot_S2000x128_S128x128_S2000x128_1_0_0_1_n_n

/-! ## The product's operand indices at an output entry and a contraction position -/

theorem lhs_row (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl

theorem lhs_col (i : S2000x128.Idx) (q : D.contr.Idx) : (D.lhsIdx i q 1).val = (q ⟨0, by decide⟩).val :=
  D.lhsIdx_val_of_single rfl i q

theorem rhs_row (i : S2000x128.Idx) (q : D.contr.Idx) : (D.rhsIdx i q 0).val = (q ⟨0, by decide⟩).val :=
  D.rhsIdx_val_of_single rfl i q

theorem rhs_col (i : S2000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A block times a matrix into the zero accumulator, at (r, o): the sum over k of block[r, k] · matrix[k, o]. -/
theorem product_at (l : FVec Ideal S2000x128 .bf16) (w : FVec Ideal S128x128 .bf16) (r : Fin 2000) (o : Fin 128) :
    matmul D none l w (constant (F := Ideal) S2000x128 .f32 0x00000000#32) (ix2 r o)
      = ∑ k : Fin 128, l (ix2 r k) * w (ix2 k o) := by
  show FloatOps.matmul D none l w (constant (F := Ideal) S2000x128 .f32 0x00000000#32) (ix2 r o) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 r o) ((contrEquiv1 D 128 rfl rfl).symm k) = ix2 r k := funext fun a => Fin.ext (by
    match a with
    | ⟨0, _⟩ => exact lhs_row _ _
    | ⟨1, _⟩ => exact (lhs_col _ _).trans hk)
  have er : D.rhsIdx (ix2 r o) ((contrEquiv1 D 128 rfl rfl).symm k) = ix2 k o := funext fun a => Fin.ext (by
    match a with
    | ⟨0, _⟩ => exact (rhs_row _ _).trans hk
    | ⟨1, _⟩ => exact rhs_col _ _)
  rw [el, er]

/-- The stored block at (0, r, o), from the five loaded blocks. -/
theorem stored_at (x0 x1 : Vec Ideal S1x2000x128 .f32) (x2 x3 : Vec Ideal S128x128 .f32) (x4 : Vec Ideal S1x128 .f32)
    (u : Fin 1) (r : Fin 2000) (o : Fin 128) :
    k0_pay1 x0 x1 x2 x3 x4 (ix3 u r o)
      = ((∑ k : Fin 128, x0 (ix3 (0 : Fin 1) r k) * x2 (ix2 k o)) + ∑ k : Fin 128, x1 (ix3 (0 : Fin 1) r k) * x3 (ix2 k o))
          + x4 (ix2 (0 : Fin 1) o) := by
  unfold k0_pay1
  refine (shapeCast_ab_1ab_apply _ _ u r o).trans ?_
  rw [addf_apply, addf_apply, product_at, product_at, broadcastTo_1b_ab_apply]
  simp only [truncf_apply, shapeCast_self, shapeCast_1ab_ab_apply]

end Cert.Sage.Body

end
-- ==== Proof.Blocks.lean ====
/-
  From the blocks to the whole output array.

  The grid is 8 × 5: point (b, q) works on batch b and on the 2000 nodes from 2000·q on. At that point the first two
  operands' blocks are rows 2000·q … 2000·q + 1999 of batch b of the mean array and of `x`, the weight matrices and the
  bias row are whole, and the output block is the same rows of batch b of the result. The body's stored entry at
  (0, r, o) is therefore the kernel's arrangement of the layer at (b, 2000·q + r, o) of the whole arrays: what a point
  writes back is its block of ONE array. The forty blocks tile the result (the block holding node n of batch b is the one
  at point (b, n / 2000)), so after the run the result is that array everywhere.
-/
import proofs.«102257_j19739669692578_1_alg».proof.Proof.Gen.KernelIdeal.Value
import proofs.«102257_j19739669692578_1_alg».proof.Proof.Body
import proofs.«102257_j19739669692578_1_alg».proof.Proof.Spec

set_option maxRecDepth 16384

noncomputable section

namespace Cert.Sage.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- What the body leaves in the output's staging buffer at (u, r, o), from the five staged blocks. -/
theorem out_at (x0 x1 : Vec Ideal S1x2000x128 .f32) (x2 x3 : Vec Ideal S128x128 .f32) (x4 : Vec Ideal S1x128 .f32)
    (u : Fin 1) (r : Fin 2000) (o : Fin 128) :
    out0_5 x0 x1 x2 x3 x4 (ix3 u r o)
      = ((∑ k : Fin 128, x0 (ix3 (0 : Fin 1) r k) * x2 (ix2 k o)) + ∑ k : Fin 128, x1 (ix3 (0 : Fin 1) r k) * x3 (ix2 k o))
          + x4 (ix2 (0 : Fin 1) o) := by
  unfold out0_5
  rw [View.canon_unit_zero zero3]
  simp only [View.ld_unit_zero (S := S1x2000x128) zero3, View.ld_unit_zero (S := S128x128) zero2, View.ld_unit_zero (S := S1x128) zero2]
  exact Body.stored_at x0 x1 x2 x3 x4 u r o

/-- The kernel's arrangement of the layer over the arrays the region finds. -/
def result (c : Dev nD) : Feat.Idx → EReal :=
  layerT (V m c main_v23) (V m c main_arg0) (V m c main_v24) (V m c main_v25) (V m c main_v26)

/-- The printed index maps over the grid: the two row operands move with the output on the batch and node-tile axes,
    the matrices and the bias stay at block zero, the output's block indices range over 8 × 5. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = win0_5.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) < 8 ∧ win0_5.index t (1 : Fin 3) < 5 ∧ win0_5.index t (2 : Fin 3) = 0 :=
  (by decide +kernel : ∀ t : Fin grid0.N, _)

/-- Every (batch, node tile) is some point's output block. -/
theorem idx_onto : ∀ (q0 : Fin 8) (q1 : Fin 5), ∃ t : Fin cfg0.N, win0_5.index t = ![q0.val, q1.val, 0] :=
  (by decide +kernel : ∀ (q0 : Fin 8) (q1 : Fin 5), ∃ t : Fin grid0.N, win0_5.index t = ![q0.val, q1.val, 0])

/-- WHAT POINT `t` WRITES BACK is its block of `result`. -/
theorem flushed_eq (c : Dev nD) (t : Fin cfg0.N) :
    (dats m 0 c).flushed 5 t = ((cfg0.win 5).blk t).view.read (Elt Ideal) (result m c) := by
  rw [Cert.KernelIdeal.Value.flushed5]
  obtain ⟨e00, e01, e02, e10, e11, e12, e20, e21, e30, e31, e40, e41, h50, h51, e52⟩ := idx_facts t
  refine funext fun (j : S1x2000x128.Idx) => ?_
  obtain ⟨u, r, o, rfl⟩ : ∃ (u : Fin 1) (r : Fin 2000) (o : Fin 128), j = ix3 u r o := ⟨j 0, j 1, j 2, eq_ix3 j⟩
  have hu : u.val = 0 := by omega
  have hr : r.val < 2000 := r.isLt
  -- the entry of the whole arrays this block entry is
  obtain ⟨b, hb⟩ : ∃ b : Fin 8, b.val = win0_5.index t (0 : Fin 3) := ⟨⟨_, h50⟩, rfl⟩
  obtain ⟨n, hn⟩ : ∃ n : Fin 10000, n.val = win0_5.index t (1 : Fin 3) * 2000 + r.val := ⟨⟨_, by omega⟩, rfl⟩
  have hout : ((cfg0.win 5).blk t).view.emb (ix3 u r o) = ix3 b n o := by
    funext a; apply Fin.ext
    match a with
    | ⟨0, _⟩ => show win0_5.index t (0 : Fin 3) * 1 + 1 * u.val = b.val; omega
    | ⟨1, _⟩ => show win0_5.index t (1 : Fin 3) * 2000 + 1 * r.val = n.val; omega
    | ⟨2, _⟩ => show win0_5.index t (2 : Fin 3) * 128 + 1 * o.val = o.val; omega
  have r0 : ∀ k : Fin 128, iblk m c 0 t (ix3 (0 : Fin 1) r k) = V m c main_v23 (ix3 b n k) := fun k => by
    show V m c main_v23 (((cfg0.win 0).blk t).view.emb (ix3 (0 : Fin 1) r k)) = V m c main_v23 (ix3 b n k)
    refine congrArg _ (funext fun a => Fin.ext ?_)
    match a with
    | ⟨0, _⟩ => show win0_0.index t (0 : Fin 3) * 1 + 1 * 0 = b.val; omega
    | ⟨1, _⟩ => show win0_0.index t (1 : Fin 3) * 2000 + 1 * r.val = n.val; omega
    | ⟨2, _⟩ => show win0_0.index t (2 : Fin 3) * 128 + 1 * k.val = k.val; omega
  have r1 : ∀ k : Fin 128, iblk m c 1 t (ix3 (0 : Fin 1) r k) = V m c main_arg0 (ix3 b n k) := fun k => by
    show V m c main_arg0 (((cfg0.win 1).blk t).view.emb (ix3 (0 : Fin 1) r k)) = V m c main_arg0 (ix3 b n k)
    refine congrArg _ (funext fun a => Fin.ext ?_)
    match a with
    | ⟨0, _⟩ => show win0_1.index t (0 : Fin 3) * 1 + 1 * 0 = b.val; omega
    | ⟨1, _⟩ => show win0_1.index t (1 : Fin 3) * 2000 + 1 * r.val = n.val; omega
    | ⟨2, _⟩ => show win0_1.index t (2 : Fin 3) * 128 + 1 * k.val = k.val; omega
  have r2 : ∀ k : Fin 128, iblk m c 2 t (ix2 k o) = V m c main_v24 (ix2 k o) := fun k => by
    show V m c main_v24 (((cfg0.win 2).blk t).view.emb (ix2 k o)) = V m c main_v24 (ix2 k o)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * o.val = o.val; omega
  have r3 : ∀ k : Fin 128, iblk m c 3 t (ix2 k o) = V m c main_v25 (ix2 k o) := fun k => by
    show V m c main_v25 (((cfg0.win 3).blk t).view.emb (ix2 k o)) = V m c main_v25 (ix2 k o)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * o.val = o.val; omega
  have r4 : iblk m c 4 t (ix2 (0 : Fin 1) o) = V m c main_v26 (ix2 (0 : Fin 1) o) := by
    show V m c main_v26 (((cfg0.win 4).blk t).view.emb (ix2 (0 : Fin 1) o)) = V m c main_v26 (ix2 (0 : Fin 1) o)
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * o.val = o.val; omega
  show out0_5 (iblk m c 0 t) (iblk m c 1 t) (iblk m c 2 t) (iblk m c 3 t) (iblk m c 4 t) (ix3 u r o)
      = result m c (((cfg0.win 5).blk t).view.emb (ix3 u r o))
  rw [hout]
  refine (out_at (iblk m c 0 t) (iblk m c 1 t) (iblk m c 2 t) (iblk m c 3 t) (iblk m c 4 t) u r o).trans ?_
  show _ = layerTAt (V m c main_v23) (V m c main_arg0) (V m c main_v24) (V m c main_v25) (V m c main_v26) b n o
  unfold layerTAt
  rw [r4]
  refine congrArg₂ (· + ·) (congrArg₂ (· + ·) (Finset.sum_congr rfl fun k _ => ?_) (Finset.sum_congr rfl fun k _ => ?_)) rfl
  · rw [r0 k, r2 k]
  · rw [r1 k, r3 k]

/-- An index of the result is in point `t`'s block iff each coordinate is in the block's range on its axis. -/
theorem mem_blk (t : Fin cfg0.N) (i : S8x10000x128.Idx) :
    i ∈ ((cfg0.win 5).blk t).view.set ↔ ∀ a : Fin 3, win0_5.index t a * S1x2000x128.size a ≤ (i a).val ∧ (i a).val < win0_5.index t a * S1x2000x128.size a + S1x2000x128.size a := by
  show i ∈ ((View.whole main_v27).slice (win0_5.rect t)).set ↔ _
  rw [View.set_slice_whole, Rect.mem_set_unit]
  exact Iff.rfl

/-- The forty blocks cover the result: entry (b, n, o) lies in the block of the point with block index (b, n / 2000, 0). -/
theorem cover (i : S8x10000x128.Idx) :
    ∃ t : Fin cfg0.N, (cfg0.win 5).flush t = true ∧ i ∈ ((cfg0.win 5).blk t).view.set := by
  have hi0 : (i 0).val < 8 := (i 0).isLt
  have hi1 : (i 1).val < 10000 := (i 1).isLt
  have hi2 : (i 2).val < 128 := (i 2).isLt
  obtain ⟨t, ht⟩ := idx_onto ⟨(i 0).val, hi0⟩ ⟨(i 1).val / 2000, by omega⟩
  have q0 : win0_5.index t (0 : Fin 3) = (i 0).val := congrFun ht 0
  have q1 : win0_5.index t (1 : Fin 3) = (i 1).val / 2000 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2000 ≤ (i 1).val ∧ (i 1).val < win0_5.index t (1 : Fin 3) * 2000 + 2000; omega
  | ⟨2, _⟩ => show win0_5.index t (2 : Fin 3) * 128 ≤ (i 2).val ∧ (i 2).val < win0_5.index t (2 : Fin 3) * 128 + 128; omega

/-- THE RESULT ARRAY after the run is `result`. -/
theorem final (c : Dev nD) : (dats m 0 c).arrAt 5 cfg0.N = result m c :=
  (dats m 0 c).arrAt_eq_of_cover 5 (result m c) (fun t _ => flushed_eq m c t) cover

end Cert.Sage.Blocks

end
-- ==== Proof.RefValue.lean ====
/-
  The reference's result is the layer.

  Read one operation at a time, the reference's last value at (b, n, o) is the einsum of its mean array with W_l
  (the sum over k of mean[b, n, k] · W_l[o, k]), plus the bias at o, plus the einsum of x with W_r: the layer's defining
  expression, with the mean array the reference's own quotient of neighbourhood sums by degrees, which is not opened.
-/
import proofs.«102257_j19739669692578_1_alg».proof.Proof.Gen.ReferenceIdeal.Read
import proofs.«102257_j19739669692578_1_alg».proof.Proof.Spec

noncomputable section

namespace Cert.Sage.Ref

open Idealize.ShloMosaic Idealize.ShloMosaic.ValueIdx
open Cert.ReferenceIdeal Cert.ReferenceIdeal.Read

/-- The reference's result array is `layer` of its mean array, `x`, the two weight matrices and the bias. -/
theorem result_eq (x0 : (⟨S8x10000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S2x160000, .i32⟩ : BufTy).Contents (Elt Ideal)) :
    val_main_v30 (F := Ideal) x0 x1 x2 x3 x4 = layer (val_main_v24 (F := Ideal) x0 x4) x0 x1 x3 x2 := by
  funext i
  obtain ⟨b, n, o, rfl⟩ : ∃ (b : Fin 8) (n : Fin 10000) (o : Fin 128), i = ix3 b n o := ⟨i 0, i 1, i 2, eq_ix3 i⟩
  have el : ∀ k : Fin 128, lidx_main_v25 (ix3 b n o) k = ix3 b n k := fun k => funext fun a => Fin.ext (by
    match a with | ⟨0, _⟩ => rfl | ⟨1, _⟩ => rfl | ⟨2, _⟩ => rfl)
  have er : ∀ k : Fin 128, ridx_main_v25 (ix3 b n o) k = ix2 o k := fun k => funext fun a => Fin.ext (by
    match a with | ⟨0, _⟩ => rfl | ⟨1, _⟩ => rfl)
  have el' : ∀ k : Fin 128, lidx_main_v29 (ix3 b n o) k = ix3 b n k := fun k => funext fun a => Fin.ext (by
    match a with | ⟨0, _⟩ => rfl | ⟨1, _⟩ => rfl | ⟨2, _⟩ => rfl)
  have er' : ∀ k : Fin 128, ridx_main_v29 (ix3 b n o) k = ix2 o k := fun k => funext fun a => Fin.ext (by
    match a with | ⟨0, _⟩ => rfl | ⟨1, _⟩ => rfl)
  have eb : idx_main_v26 (idx_main_v27 (ix3 b n o)) = ix1 o := funext fun a => Fin.ext (by
    match a with | ⟨0, _⟩ => rfl)
  rw [val_main_v30_apply, val_main_v28_apply, val_main_v25_apply, val_main_v27_apply, val_main_v26_apply, val_main_v29_apply]
  simp only [el, er, el', er', eb]
  rfl

end Cert.Sage.Ref

end
-- ==== Proof.lean ====
/-
  A GraphSAGE layer with mean aggregation: for every batch b, node n and output feature o,
      out[b, n, o] = Σₖ mean[b, n, k] · W_l[o, k] + bias[o] + Σₖ x[b, n, k] · W_r[o, k],
  where mean[b, n, ·] is the sum of the rows x[b, j, ·] over the edges j → n divided by max(in-degree of n, 1).

  Both programs compute the neighbourhood sums and the degrees on the host by the same gather and scatter-add; they
  differ in how the degrees are spread before the division (the same denominator at every index: `Entry.mean_eq`), in
  who multiplies — the kernel, 2000 nodes of one batch at a time, with the weights transposed beforehand, the four
  matrix operands rounded to bf16 (the identity on extended reals) and the bias row added last; the reference, by two
  whole einsums with the bias added in between — and in nothing else. On the extended reals the two arrangements are
  one function of the arrays (`Spec.layerT_eq_layer`: addition is commutative and associative, no finiteness needed).

  The kernel's side: its frame run names the result array; each grid point writes its block of one array
  (`Blocks.flushed_eq`, over `Body.stored_at`), the blocks tile the result (`Blocks.cover`), and the arrays the region
  finds are the arguments re-laid and the shared mean array (`Entry`). The reference's side: its run read one operation
  at a time (`Ref.result_eq`). The three frames are the programs' runs with the result dropped, and the kernel's
  idealization rewrote nothing.
-/
import proofs.«102257_j19739669692578_1_alg».proof.Defs
import proofs.«102257_j19739669692578_1_alg».proof.Proof.Gen.Kernel
import proofs.«102257_j19739669692578_1_alg».proof.Proof.Gen.Kernel.Skeleton
import proofs.«102257_j19739669692578_1_alg».proof.Proof.Gen.Kernel.Launch
import proofs.«102257_j19739669692578_1_alg».proof.Proof.Gen.Kernel.Points
import proofs.«102257_j19739669692578_1_alg».proof.Proof.Gen.Kernel.Frame
import proofs.«102257_j19739669692578_1_alg».proof.Proof.Gen.KernelIdeal
import proofs.«102257_j19739669692578_1_alg».proof.Proof.Gen.KernelIdeal.Skeleton
import proofs.«102257_j19739669692578_1_alg».proof.Proof.Gen.KernelIdeal.Launch
import proofs.«102257_j19739669692578_1_alg».proof.Proof.Gen.KernelIdeal.Points
import proofs.«102257_j19739669692578_1_alg».proof.Proof.Gen.KernelIdeal.Frame
import proofs.«102257_j19739669692578_1_alg».proof.Proof.Gen.ReferenceIdeal
import proofs.«102257_j19739669692578_1_alg».proof.Proof.Gen.Pre_finite_inputs
import proofs.«102257_j19739669692578_1_alg».proof.Proof.Gen.KernelIdeal.Value
import proofs.«102257_j19739669692578_1_alg».proof.Proof.Gen.ReferenceIdeal.Run
import proofs.«102257_j19739669692578_1_alg».proof.Proof.Gen.ReferenceIdeal.Read
import proofs.«102257_j19739669692578_1_alg».proof.Proof.Spec
import proofs.«102257_j19739669692578_1_alg».proof.Proof.Entry
import proofs.«102257_j19739669692578_1_alg».proof.Proof.Blocks
import proofs.«102257_j19739669692578_1_alg».proof.Proof.RefValue
import Idealize.ShloMosaic.Adequacy
import Idealize.ShloMosaic.Init

noncomputable section

namespace Cert.Proof

open Idealize.ShloMosaic Idealize.ShloMosaic.TcCoe Idealize.SL.Sem Cert.Sage

section KernelSide

open Cert.KernelIdeal

variable (m : (ℓ : Loc nD τ sig) → Buf (Elt Ideal) ℓ) (ρ : Dev nD → PrngReg)

/-- The layer of the five arguments as core `c` was launched with them: the value both programs end with. -/
def value (c : Dev nD) : Feat.Idx → EReal :=
  layer (Cert.ReferenceIdeal.Read.val_main_v24 (F := Ideal) (m ((c : Thread nD τ).loc main_arg0)) (m ((c : Thread nD τ).loc main_arg4)))
    (m ((c : Thread nD τ).loc main_arg0)) (m ((c : Thread nD τ).loc main_arg1)) (m ((c : Thread nD τ).loc main_arg3))
    (m ((c : Thread nD τ).loc main_arg2))

/-- The kernel's arrangement over the arrays the region finds is the layer of the arguments: the first operand is the
    shared mean array, the second is `x` untouched, the weights are transposed and the bias is a row. -/
theorem result_eq (c : Dev nD) : Blocks.result m c = value m c := by
  unfold Blocks.result value
  rw [Entry.mean_eq m c, Gen.V_main_arg0 m c]
  exact layerT_eq_layer _ _ _ _ _ _ _ _ (Entry.wl_at m c) (Entry.wr_at m c) (Entry.bias_at m c)

/-- The kernel program's run: the result array ends at the layer of the arguments, the arguments unchanged. -/
theorem kernel_run : θ_run defs (onTc (τ := τ) (main (F := Ideal))) ⟨m, fun _ => 0, ρ⟩ fun r => ∀ c : Dev nD,
      r.2.mem ((c : Thread nD τ).loc main_v27) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((Blocks.final m c).trans (result_eq m c)), (h c).2⟩)
    (Cert.KernelIdeal.Value.run_blocks m ρ)

end KernelSide

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments both programs end with the layer of those arguments. -/
theorem algebraic : Cert.algebraic_KernelIdeal_ReferenceIdeal := by
  intro m ρ m' ρ' _ hagree
  refine ⟨fun c => value m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Ref.result_eq, (hagree c).1, (hagree c).2.1, (hagree c).2.2.1,
    (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
